-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x8 : Shape := ⟨2, ![32768, 8]⟩
abbrev S8x1024 : Shape := ⟨2, ![8, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S_ : Shape := ⟨0, ![]⟩

class Facts : Prop where
  bcast_S_S32768x8 : S_.BroadcastsInDim S32768x8 (![] : Fin 0 → Fin S32768x8.rank)
  reducesTo_S32768x8_S_d0_1 : S32768x8.ReducesTo [0, 1] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1024x1 .f32) (main_arg8 : FVec F S1 .f32) (main_v33 : IVec S_ 1) : IVec S_ 1 :=
  let main_v34 : FVec F S1024x1 .f32 := Host.absf main_arg7
  let main_cst_12 : FVec F S_ .f32 := constant S_ .f32 0x7F800000#32
  let main_v35 : FVec F S1024x1 .f32 := broadcastInDim S1024x1 ![] bcast_S_S1024x1 main_cst_12
  let main_v36 : IVec S1024x1 1 := cmpf .olt main_v34 main_v35
  let main_c_13 : IVec S_ 1 := constantI S_ 1 1#1
  let main_v37 : IVec S_ 1 := (fun x v => Host.reduce IntOp.andi x v reducesTo_S1024x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1 .f32) (main_arg8 : FVec F S1 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S32768x8 .f32) (main_arg1 : FVec F S8x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1 .f32) (main_arg8 : FVec F S1 .f32) : IVec S_ 1 :=
  let main_v0 : FVec F S32768x8 .f32 := Host.absf main_arg0
  let main_cst : FVec F S_ .f32 := constant S_ .f32 0x7F800000#32
  let main_v1 : FVec F S32768x8 .f32 := broadcastInDim S32768x8 ![] bcast_S_S32768x8 main_cst
  let main_v2 : IVec S32768x8 1 := cmpf .olt main_v0 main_v1
  let main_c : IVec S_ 1 := constantI S_ 1 1#1
  let main_v3 : IVec S_ 1 := (fun x v => Host.reduce IntOp.andi x v reducesTo_S32768x8_S_d0_1 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S32768x8 : Shape := ⟨2, ![32768, 8]⟩
abbrev S8x1024 : Shape := ⟨2, ![8, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S32768x1 : Shape := ⟨2, ![32768, 1]⟩
abbrev S1024x8 : Shape := ⟨2, ![1024, 8]⟩
abbrev S1x1024 : Shape := ⟨2, ![1, 1024]⟩
abbrev S1x1 : Shape := ⟨2, ![1, 1]⟩

abbrev nBuf : Space → Nat
  | .hbm => 14
  | .vmem => 12
  | .smem => 0
  | _ => 0

abbrev bufTy : (tb : Table) → Fin (tcTables nBuf tb) → BufTy
  | .hbm, ⟨0, _⟩ => ⟨S32768x8, .f32⟩
  | .hbm, ⟨1, _⟩ => ⟨S8x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1, .f32⟩
  | .hbm, ⟨8, _⟩ => ⟨S1, .f32⟩
  | .hbm, ⟨9, _⟩ => ⟨S8x1024, .bf16⟩
  | .hbm, ⟨10, _⟩ => ⟨S1024x1024, .bf16⟩
  | .hbm, ⟨11, _⟩ => ⟨S1024x1024, .bf16⟩
  | .hbm, ⟨12, _⟩ => ⟨S1024x1, .bf16⟩
  | .hbm, ⟨13, _⟩ => ⟨S32768x1, .f32⟩
  | .local _ .vmem, ⟨0, _⟩ => ⟨S1024x8, .f32⟩
  | .local _ .vmem, ⟨1, _⟩ => ⟨S1024x8, .f32⟩
  | .local _ .vmem, ⟨2, _⟩ => ⟨S8x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S1024x1, .bf16⟩
  | .local _ .vmem, ⟨9, _⟩ => ⟨S1, .f32⟩
  | .local _ .vmem, ⟨10, _⟩ => ⟨S1024x1, .f32⟩
  | .local _ .vmem, ⟨11, _⟩ => ⟨S1024x1, .f32⟩
  | _, _ => ⟨S32768x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  inb_S1024x8_S1024x8_0_0 : ∀ a, (![0, 0] : Fin 2 → Nat) a + S1024x8.size a ≤ S1024x8.size a
  h_S1024x8 : 0 < S1024x8.numel
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  slices_S1024x8_o0_0_S1024x1 : S1024x8.Slices ![0, 0] S1024x1
  slices_S1024x8_o0_1_S1024x1 : S1024x8.Slices ![0, 1] S1024x1
  slices_S1024x8_o0_2_S1024x1 : S1024x8.Slices ![0, 2] S1024x1
  slices_S1024x8_o0_3_S1024x1 : S1024x8.Slices ![0, 3] S1024x1
  slices_S1024x8_o0_7_S1024x1 : S1024x8.Slices ![0, 7] S1024x1
  dot_S1024x8_S8x1024_S1024x1024_1_0_0_1_n_n_wf : DotDims.WF S1024x8 S8x1024 S1024x1024 [1] [0] [0] [1] [] []
  dot_S1024x1024_S1024x1024_S1024x1024_1_0_0_1_n_n_wf : DotDims.WF S1024x1024 S1024x1024 S1024x1024 [1] [0] [0] [1] [] []
  dot_S1024x1024_S1024x1_S1024x1_1_0_0_1_n_n_wf : DotDims.WF S1024x1024 S1024x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8.size a ≤ S32768x8.size a
  hwx0_0 : ∀ i : grid0.Coords, EltTy.bits .f32 = 32 ∨ (Rect.block (s := S32768x8) S1024x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S8x1024.size a
  hwx0_1 : ∀ i : grid0.Coords, EltTy.bits .bf16 = 32 ∨ (Rect.block (s := S8x1024) S8x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S1024x1.size a
  hwx0_7 : ∀ i : grid0.Coords, EltTy.bits .bf16 = 32 ∨ (Rect.block (s := S1024x1) S1024x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1.size a ≤ S32768x1.size a
  hwx0_9 : ∀ i : grid0.Coords, EltTy.bits .f32 = 32 ∨ (Rect.block (s := S32768x1) S1024x1.size (cc0_transform_9 i) (hinb0_9 i)).WholeWords (EltTy.packing .f32)

variable [Facts₀]

def dot_S1024x8_S8x1024_S1024x1024_1_0_0_1_n_n : DotDims S1024x8 S8x1024 S1024x1024 where
  lhsContracting := [1]
  rhsContracting := [0]
  lhsNonContracting := [0]
  rhsNonContracting := [1]
  lhsBatch := []
  rhsBatch := []
  wf := dot_S1024x8_S8x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1_S1024x1_1_0_0_1_n_n : DotDims S1024x1024 S1024x1 S1024x1 where
  lhsContracting := [1]
  rhsContracting := [0]
  lhsNonContracting := [0]
  rhsNonContracting := [1]
  lhsBatch := []
  rhsBatch := []
  wf := dot_S1024x1024_S1024x1_S1024x1_1_0_0_1_n_n_wf

abbrev win0_0 : Pipeline.Window sig grid0 :=
  Pipeline.Window.ofSpec (Memref.whole main_arg0) S1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S8x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v3) S1024x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S1024x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32768x8 : Shape := ⟨2, ![32768, 8]⟩
abbrev S8x1024 : Shape := ⟨2, ![8, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S32768x1024 : Shape := ⟨2, ![32768, 1024]⟩
abbrev S1x1024 : Shape := ⟨2, ![1, 1024]⟩
abbrev S_ : Shape := ⟨0, ![]⟩
abbrev S32768x1 : Shape := ⟨2, ![32768, 1]⟩
abbrev S1x1 : Shape := ⟨2, ![1, 1]⟩

abbrev nBuf : Space → Nat
  | .hbm => 147
  | .vmem => 0
  | .smem => 0
  | _ => 0

abbrev hbmTy0_0 (i : Nat) : BufTy := match i % 128 with
  | 0 => ⟨S32768x8, .f32⟩
  | 1 => ⟨S8x1024, .f32⟩
  | 2 => ⟨S1024, .f32⟩
  | 3 => ⟨S1024x1024, .f32⟩
  | 4 => ⟨S1024, .f32⟩
  | 5 => ⟨S1024x1024, .f32⟩
  | 6 => ⟨S1024, .f32⟩
  | 7 => ⟨S1024x1, .f32⟩
  | 8 => ⟨S1, .f32⟩
  | 9 => ⟨S32768x1024, .f32⟩
  | 10 => ⟨S1x1024, .f32⟩
  | 11 => ⟨S32768x1024, .f32⟩
  | 12 => ⟨S32768x1024, .f32⟩
  | 13 => ⟨S_, .f32⟩
  | 14 => ⟨S32768x1024, .f32⟩
  | 15 => ⟨S32768x1024, .f32⟩
  | 16 => ⟨S32768x1024, .f32⟩
  | 17 => ⟨S1x1024, .f32⟩
  | 18 => ⟨S32768x1024, .f32⟩
  | 19 => ⟨S32768x1024, .f32⟩
  | 20 => ⟨S_, .f32⟩
  | 21 => ⟨S32768x1024, .f32⟩
  | 22 => ⟨S32768x1024, .f32⟩
  | 23 => ⟨S32768x1024, .f32⟩
  | 24 => ⟨S1x1024, .f32⟩
  | 25 => ⟨S32768x1024, .f32⟩
  | 26 => ⟨S32768x1024, .f32⟩
  | 27 => ⟨S_, .f32⟩
  | 28 => ⟨S32768x1024, .f32⟩
  | 29 => ⟨S32768x1024, .f32⟩
  | 30 => ⟨S32768x1, .f32⟩
  | 31 => ⟨S1x1, .f32⟩
  | 32 => ⟨S32768x1, .f32⟩
  | 33 => ⟨S32768x1, .f32⟩
  | 34 => ⟨S32768x1, .f32⟩
  | 35 => ⟨S32768x1, .f32⟩
  | 36 => ⟨S32768x1, .f32⟩
  | 37 => ⟨S32768x1, .f32⟩
  | 38 => ⟨S32768x1, .f32⟩
  | 39 => ⟨S_, .f32⟩
  | 40 => ⟨S32768x1, .f32⟩
  | 41 => ⟨S32768x1, .f32⟩
  | 42 => ⟨S_, .f32⟩
  | 43 => ⟨S32768x1, .f32⟩
  | 44 => ⟨S32768x1, .i1⟩
  | 45 => ⟨S_, .f32⟩
  | 46 => ⟨S32768x1, .f32⟩
  | 47 => ⟨S32768x1, .i1⟩
  | 48 => ⟨S32768x1, .i1⟩
  | 49 => ⟨S_, .f32⟩
  | 50 => ⟨S32768x1, .f32⟩
  | 51 => ⟨S32768x1, .i1⟩
  | 52 => ⟨S_, .f32⟩
  | 53 => ⟨S_, .f32⟩
  | 54 => ⟨S32768x1, .f32⟩
  | 55 => ⟨S32768x1, .f32⟩
  | 56 => ⟨S32768x1, .f32⟩
  | 57 => ⟨S32768x1, .f32⟩
  | 58 => ⟨S_, .f32⟩
  | 59 => ⟨S32768x1, .f32⟩
  | 60 => ⟨S32768x1, .f32⟩
  | 61 => ⟨S32768x1, .f32⟩
  | 62 => ⟨S_, .f32⟩
  | 63 => ⟨S32768x1, .f32⟩
  | 64 => ⟨S32768x1, .f32⟩
  | 65 => ⟨S32768x1, .f32⟩
  | 66 => ⟨S_, .f32⟩
  | 67 => ⟨S32768x1, .f32⟩
  | 68 => ⟨S32768x1, .f32⟩
  | 69 => ⟨S_, .f32⟩
  | 70 => ⟨S32768x1, .f32⟩
  | 71 => ⟨S32768x1, .f32⟩
  | 72 => ⟨S_, .f32⟩
  | 73 => ⟨S32768x1, .f32⟩
  | 74 => ⟨S32768x1, .f32⟩
  | 75 => ⟨S_, .f32⟩
  | 76 => ⟨S32768x1, .f32⟩
  | 77 => ⟨S32768x1, .f32⟩
  | 78 => ⟨S_, .f32⟩
  | 79 => ⟨S32768x1, .f32⟩
  | 80 => ⟨S32768x1, .f32⟩
  | 81 => ⟨S32768x1, .f32⟩
  | 82 => ⟨S32768x1, .f32⟩
  | 83 => ⟨S32768x1, .f32⟩
  | 84 => ⟨S_, .f32⟩
  | 85 => ⟨S32768x1, .f32⟩
  | 86 => ⟨S32768x1, .f32⟩
  | 87 => ⟨S32768x1, .f32⟩
  | 88 => ⟨S32768x1, .f32⟩
  | 89 => ⟨S_, .f32⟩
  | 90 => ⟨S32768x1, .f32⟩
  | 91 => ⟨S32768x1, .i1⟩
  | 92 => ⟨S_, .f32⟩
  | 93 => ⟨S_, .f32⟩
  | 94 => ⟨S32768x1, .f32⟩
  | 95 => ⟨S32768x1, .f32⟩
  | 96 => ⟨S_, .f32⟩
  | 97 => ⟨S32768x1, .f32⟩
  | 98 => ⟨S32768x1, .i1⟩
  | 99 => ⟨S_, .f32⟩
  | 100 => ⟨S_, .f32⟩
  | 101 => ⟨S32768x1, .f32⟩
  | 102 => ⟨S32768x1, .f32⟩
  | 103 => ⟨S32768x1, .f32⟩
  | 104 => ⟨S32768x1, .f32⟩
  | 105 => ⟨S32768x1, .f32⟩
  | 106 => ⟨S_, .f32⟩
  | 107 => ⟨S_, .f32⟩
  | 108 => ⟨S_, .f32⟩
  | 109 => ⟨S32768x1, .f32⟩
  | 110 => ⟨S32768x1, .f32⟩
  | 111 => ⟨S_, .f32⟩
  | 112 => ⟨S32768x1, .f32⟩
  | 113 => ⟨S32768x1, .f32⟩
  | 114 => ⟨S32768x1, .f32⟩
  | 115 => ⟨S32768x1, .f32⟩
  | 116 => ⟨S_, .f32⟩
  | 117 => ⟨S32768x1, .f32⟩
  | 118 => ⟨S32768x1, .f32⟩
  | 119 => ⟨S32768x1, .f32⟩
  | 120 => ⟨S32768x1, .f32⟩
  | 121 => ⟨S_, .f32⟩
  | 122 => ⟨S32768x1, .f32⟩
  | 123 => ⟨S32768x1, .f32⟩
  | 124 => ⟨S32768x1, .f32⟩
  | 125 => ⟨S_, .f32⟩
  | 126 => ⟨S32768x1, .f32⟩
  | 127 => ⟨S32768x1, .f32⟩
  | _ => ⟨S32768x8, .f32⟩

abbrev hbmTy0_1 (i : Nat) : BufTy := match i % 128 with
  | 0 => ⟨S_, .f32⟩
  | 1 => ⟨S_, .f32⟩
  | 2 => ⟨S_, .f32⟩
  | 3 => ⟨S32768x1, .f32⟩
  | 4 => ⟨S32768x1, .f32⟩
  | 5 => ⟨S_, .f32⟩
  | 6 => ⟨S32768x1, .f32⟩
  | 7 => ⟨S32768x1, .f32⟩
  | 8 => ⟨S32768x1, .f32⟩
  | 9 => ⟨S_, .f32⟩
  | 10 => ⟨S_, .f32⟩
  | 11 => ⟨S32768x1, .f32⟩
  | 12 => ⟨S32768x1, .f32⟩
  | 13 => ⟨S32768x1, .f32⟩
  | 14 => ⟨S_, .f32⟩
  | 15 => ⟨S32768x1, .f32⟩
  | 16 => ⟨S32768x1, .i1⟩
  | 17 => ⟨S32768x1, .i1⟩
  | 18 => ⟨S32768x1, .f32⟩
  | _ => ⟨S32768x8, .f32⟩

abbrev hbmTy (i : Nat) : BufTy := match i / 128 with
  | 0 => hbmTy0_0 i
  | 1 => hbmTy0_1 i
  | _ => ⟨S32768x8, .f32⟩

abbrev bufTy : (tb : Table) → Fin (tcTables nBuf tb) → BufTy
  | .hbm, ⟨i, _⟩ => hbmTy i
  | _, _ => ⟨S32768x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call2_cst : Ref sig .tc := ⟨.hbm, 27, rfl⟩
abbrev main_call2_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_cst_0 : Ref sig .tc := ⟨.hbm, 42, rfl⟩
abbrev main_v26 : Ref sig .tc := ⟨.hbm, 43, rfl⟩
abbrev main_v27 : Ref sig .tc := ⟨.hbm, 44, rfl⟩
abbrev main_cst_1 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_call3_v0 : Ref sig .tc := ⟨.hbm, 53, rfl⟩
abbrev main_call3_v1 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_4 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_6 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_v49 : Ref sig .tc := ⟨.hbm, 77, rfl⟩
abbrev main_cst_10 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_cst_13 : Ref sig .tc := ⟨.hbm, 92, rfl⟩
abbrev main_call4_v0 : Ref sig .tc := ⟨.hbm, 93, rfl⟩
abbrev main_call4_v1 : Ref sig .tc := ⟨.hbm, 94, rfl⟩
abbrev main_v61 : Ref sig .tc := ⟨.hbm, 95, rfl⟩
abbrev main_cst_14 : Ref sig .tc := ⟨.hbm, 96, rfl⟩
abbrev main_v62 : Ref sig .tc := ⟨.hbm, 97, rfl⟩
abbrev main_v63 : Ref sig .tc := ⟨.hbm, 98, rfl⟩
abbrev main_cst_15 : Ref sig .tc := ⟨.hbm, 99, rfl⟩
abbrev main_call5_v0 : Ref sig .tc := ⟨.hbm, 100, rfl⟩
abbrev main_call5_v1 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_16 : Ref sig .tc := ⟨.hbm, 106, rfl⟩
abbrev main_cst_17 : Ref sig .tc := ⟨.hbm, 107, rfl⟩
abbrev main_call6_v0 : Ref sig .tc := ⟨.hbm, 108, rfl⟩
abbrev main_call6_v1 : Ref sig .tc := ⟨.hbm, 109, rfl⟩
abbrev main_call6_v2 : Ref sig .tc := ⟨.hbm, 110, rfl⟩
abbrev main_call6_v3 : Ref sig .tc := ⟨.hbm, 111, rfl⟩
abbrev main_call6_v4 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_cst_18 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_cst_19 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_cst_20 : Ref sig .tc := ⟨.hbm, 125, rfl⟩
abbrev main_v78 : Ref sig .tc := ⟨.hbm, 126, rfl⟩
abbrev main_v79 : Ref sig .tc := ⟨.hbm, 127, rfl⟩
abbrev main_cst_21 : Ref sig .tc := ⟨.hbm, 128, rfl⟩
abbrev main_cst_22 : Ref sig .tc := ⟨.hbm, 129, rfl⟩
abbrev main_call7_v0 : Ref sig .tc := ⟨.hbm, 130, rfl⟩
abbrev main_call7_v1 : Ref sig .tc := ⟨.hbm, 131, rfl⟩
abbrev main_call7_v2 : Ref sig .tc := ⟨.hbm, 132, rfl⟩
abbrev main_call7_v3 : Ref sig .tc := ⟨.hbm, 133, rfl⟩
abbrev main_call7_v4 : Ref sig .tc := ⟨.hbm, 134, rfl⟩
abbrev main_v80 : Ref sig .tc := ⟨.hbm, 135, rfl⟩
abbrev main_v81 : Ref sig .tc := ⟨.hbm, 136, rfl⟩
abbrev main_cst_23 : Ref sig .tc := ⟨.hbm, 137, rfl⟩
abbrev main_call8_v0 : Ref sig .tc := ⟨.hbm, 138, rfl⟩
abbrev main_call8_v1 : Ref sig .tc := ⟨.hbm, 139, rfl⟩
abbrev main_call8_v2 : Ref sig .tc := ⟨.hbm, 140, rfl⟩
abbrev main_v82 : Ref sig .tc := ⟨.hbm, 141, rfl⟩
abbrev main_cst_24 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  slices_S32768x8_S32768x1_0_0 : S32768x8.Slices ![0, 0] S32768x1
  slices_S32768x8_S32768x1_0_1 : S32768x8.Slices ![0, 1] S32768x1
  slices_S32768x8_S32768x1_0_2 : S32768x8.Slices ![0, 2] S32768x1
  slices_S32768x8_S32768x1_0_3 : S32768x8.Slices ![0, 3] S32768x1
  slices_S32768x8_S32768x1_0_7 : S32768x8.Slices ![0, 7] S32768x1
  bcast_S_S32768x1 : S_.BroadcastsInDim S32768x1 (![] : Fin 0 → Fin S32768x1.rank)
  dot_S32768x8_S8x1024_S32768x1024_1_0_0_1_n_n_wf : DotDims.WF S32768x8 S8x1024 S32768x1024 [1] [0] [0] [1] [] []
  dot_S32768x1024_S1024x1024_S32768x1024_1_0_0_1_n_n_wf : DotDims.WF S32768x1024 S1024x1024 S32768x1024 [1] [0] [0] [1] [] []
  dot_S32768x1024_S1024x1_S32768x1_1_0_0_1_n_n_wf : DotDims.WF S32768x1024 S1024x1 S32768x1 [1] [0] [0] [1] [] []

variable [Facts₀]

def dot_S32768x8_S8x1024_S32768x1024_1_0_0_1_n_n : DotDims S32768x8 S8x1024 S32768x1024 where
  lhsContracting := [1]
  rhsContracting := [0]
  lhsNonContracting := [0]
  rhsNonContracting := [1]
  lhsBatch := []
  rhsBatch := []
  wf := dot_S32768x8_S8x1024_S32768x1024_1_0_0_1_n_n_wf
def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf
def dot_S32768x1024_S1024x1_S32768x1_1_0_0_1_n_n : DotDims S32768x1024 S1024x1 S32768x1 where
  lhsContracting := [1]
  rhsContracting := [0]
  lhsNonContracting := [0]
  rhsNonContracting := [1]
  lhsBatch := []
  rhsBatch := []
  wf := dot_S32768x1024_S1024x1_S32768x1_1_0_0_1_n_n_wf

class Facts : Prop extends Facts₀ where

variable [Facts]
-- ==== Proof.Strength.lean ====
/-
  The function both programs compute, one sample (one row of the input) at a time.

  A sample is eight numbers; its first four are the cement, slag, fly-ash and water contents and its last is the age.
  A four-layer perceptron turns the eight numbers into a raw strength: three hidden layers, each an affine map followed
  by the positive part, then one affine map to a single number.  The raw strength is then confined to what the mix
  allows: between 5 and an upper bound computed from the sample's first four entries and its age, whenever cement,
  water and binder are all positive, and left as it is otherwise.

  Everything is stated over the extended reals, with each decimal constant standing for the value of its binary word.
  No entry of the sample or of the weights is assumed finite: the two programs apply the same operations to the same
  numbers, so nothing here moves a factor across a sum or cancels.
-/
import Idealize.ShloMosaic.PureOps.Ideal
import Idealize.ShloMosaic.Lib.ValueIdx

noncomputable section

namespace Strength

open Idealize.ShloMosaic Idealize.ShloMosaic.ValueIdx

/-! ## The constants, as the values of their binary words -/

abbrev zero : EReal := Ideal.ofBits .f32 0x00000000#32
abbrev one : EReal := Ideal.ofBits .f32 0x3F800000#32
/-- the word nearest 0.15 -/
abbrev c015 : EReal := Ideal.ofBits .f32 0x3E19999A#32
/-- the word nearest 0.1 -/
abbrev c01 : EReal := Ideal.ofBits .f32 0x3DCCCCCD#32
/-- the word nearest 0.95 -/
abbrev c095 : EReal := Ideal.ofBits .f32 0x3F733333#32
/-- the word nearest 0.01 -/
abbrev c001 : EReal := Ideal.ofBits .f32 0x3C23D70A#32
abbrev c10 : EReal := Ideal.ofBits .f32 0x41200000#32
abbrev c50 : EReal := Ideal.ofBits .f32 0x42480000#32
/-- the word nearest one millionth -/
abbrev cMicro : EReal := Ideal.ofBits .f32 0x358637BD#32
abbrev c120 : EReal := Ideal.ofBits .f32 0x42F00000#32
abbrev c5 : EReal := Ideal.ofBits .f32 0x40A00000#32

/-! ## The bound the mix allows -/

/-- Whether a quantity is positive, as a truth value of one bit. -/
def positive (x : EReal) : BitVec 1 := Ideal.cmp .ogt x zero

/-- A quantity if it is positive, and one otherwise: a divisor that is never zero or negative. -/
def orOne (x : EReal) : EReal := Scalar.select (positive x) x one

/-- Water over cement. -/
def waterCement (c w : EReal) : EReal := Ideal.div w (orOne c)

/-- The largest degree of hydration the mix can reach: 0.95 less a share for the supplementary materials
    `scm` in the binder, never more than 0.95. -/
def alphaMax (c scm : EReal) : EReal := min c095 (c095 - Ideal.div (c015 * scm) (max (c + scm) c01))

/-- The degree of hydration at age `a` (at least one day): an exponential approach to `alphaMax` whose rate
    falls as the water-cement ratio `wc` grows. -/
def alpha (c scm wc a : EReal) : EReal :=
  alphaMax c scm * (one - Ideal.exp (-(Ideal.div c001 (max (one + wc) c01)) * max a one))

/-- The gel-space ratio: hydration times cement's share of the binder, over the water-cement ratio. -/
def gelRatio (c scm wc a : EReal) : EReal :=
  Ideal.div (alpha c scm wc a * Ideal.div c (orOne (c + scm))) (orOne wc)

/-- A value confined to `[lo, hi]`: raised to `lo` first, then lowered to `hi`. -/
def clip (lo hi x : EReal) : EReal := min hi (max lo x)

/-- The cube, as the square times the number. -/
def cube (g : EReal) : EReal := g * g * g

/-- The cube is also the number times its square: multiplication on the extended reals is commutative. -/
theorem cube_eq_mul_sq (g : EReal) : cube g = g * (g * g) := mul_comm (g * g) g

/-- Fifty times the cube of the gel-space ratio confined to `[0.01, 10]`. -/
def maxStrength (g : EReal) : EReal := c50 * cube (clip c001 c10 g)

/-- A hundred and twenty times cement's share of the whole mix. -/
def conservation (c w scm : EReal) : EReal := c120 * Ideal.div c (max (c + w + scm) cMicro)

/-- The upper bound on the strength: the smaller of the physical limit (the gel-space strength confined to
    `[5, 120]`) and the conservation limit. -/
def upperBound (c w scm a : EReal) : EReal :=
  min (clip c5 c120 (maxStrength (gelRatio c scm (waterCement c w) a))) (conservation c w scm)

/-- The strength the mix allows, from a sample's cement `c`, slag `s`, fly ash `f`, water `w`, age `a` and raw
    prediction `raw`: `raw` raised to 5 and then lowered to the upper bound when cement, water and binder are all
    positive; `raw` itself otherwise. -/
def confine (c s f w a raw : EReal) : EReal :=
  Scalar.select (IntOp.andi (IntOp.andi (positive c) (positive w)) (positive (c + (s + f))))
    (min (upperBound c w (s + f) a) (max c5 raw)) raw

/-! ## The perceptron -/

/-- One hidden layer on one sample: entry `q` is the positive part of `Σ n, h n * W (n, q) + b q`. -/
def layer {N Q : Nat} (h : Fin N → EReal) (W : (⟨2, ![N, Q]⟩ : Shape).Idx → EReal)
    (b : (⟨1, ![Q]⟩ : Shape).Idx → EReal) (q : Fin Q) : EReal :=
  max ((∑ n : Fin N, h n * W (ix2 n q)) + b (ix1 q)) zero

/-- The last layer on one sample: `Σ n, h n * W (n, 0) + b 0`, no positive part. -/
def readout {N : Nat} (h : Fin N → EReal) (W : (⟨2, ![N, 1]⟩ : Shape).Idx → EReal)
    (b : (⟨1, ![1]⟩ : Shape).Idx → EReal) : EReal :=
  (∑ n : Fin N, h n * W (ix2 n (0 : Fin 1))) + b (ix1 (0 : Fin 1))

/-- The raw strength of one sample `xr`. -/
def predict (xr : Fin 8 → EReal)
    (W1 : (⟨2, ![8, 1024]⟩ : Shape).Idx → EReal) (b1 : (⟨1, ![1024]⟩ : Shape).Idx → EReal)
    (W2 : (⟨2, ![1024, 1024]⟩ : Shape).Idx → EReal) (b2 : (⟨1, ![1024]⟩ : Shape).Idx → EReal)
    (W3 : (⟨2, ![1024, 1024]⟩ : Shape).Idx → EReal) (b3 : (⟨1, ![1024]⟩ : Shape).Idx → EReal)
    (W4 : (⟨2, ![1024, 1]⟩ : Shape).Idx → EReal) (b4 : (⟨1, ![1]⟩ : Shape).Idx → EReal) : EReal :=
  readout (layer (layer (layer xr W1 b1) W2 b2) W3 b3) W4 b4

/-- The confined strength of one sample. -/
def sample (xr : Fin 8 → EReal)
    (W1 : (⟨2, ![8, 1024]⟩ : Shape).Idx → EReal) (b1 : (⟨1, ![1024]⟩ : Shape).Idx → EReal)
    (W2 : (⟨2, ![1024, 1024]⟩ : Shape).Idx → EReal) (b2 : (⟨1, ![1024]⟩ : Shape).Idx → EReal)
    (W3 : (⟨2, ![1024, 1024]⟩ : Shape).Idx → EReal) (b3 : (⟨1, ![1024]⟩ : Shape).Idx → EReal)
    (W4 : (⟨2, ![1024, 1]⟩ : Shape).Idx → EReal) (b4 : (⟨1, ![1]⟩ : Shape).Idx → EReal) : EReal :=
  confine (xr 0) (xr 1) (xr 2) (xr 3) (xr 7) (predict xr W1 b1 W2 b2 W3 b3 W4 b4)

/-- The whole result: entry `(r, 0)` is the confined strength of row `r` of `x`. -/
def result {B : Nat} (x : (⟨2, ![B, 8]⟩ : Shape).Idx → EReal)
    (W1 : (⟨2, ![8, 1024]⟩ : Shape).Idx → EReal) (b1 : (⟨1, ![1024]⟩ : Shape).Idx → EReal)
    (W2 : (⟨2, ![1024, 1024]⟩ : Shape).Idx → EReal) (b2 : (⟨1, ![1024]⟩ : Shape).Idx → EReal)
    (W3 : (⟨2, ![1024, 1024]⟩ : Shape).Idx → EReal) (b3 : (⟨1, ![1024]⟩ : Shape).Idx → EReal)
    (W4 : (⟨2, ![1024, 1]⟩ : Shape).Idx → EReal) (b4 : (⟨1, ![1]⟩ : Shape).Idx → EReal) :
    (⟨2, ![B, 1]⟩ : Shape).Idx → EReal :=
  fun i => sample (fun k => x (ix2 (i 0) k)) W1 b1 W2 b2 W3 b3 W4 b4

end Strength

end
-- ==== Proof.RefRow.lean ====
/-
  The reference, one stage at a time, is the function of `Strength`.

  Row `r` of each hidden layer is the layer of `Strength` applied to row `r` of the layer below; entry `(r, 0)` of the
  last product plus the last bias is the raw strength of row `r`; and entry `(r, 0)` of the final selection is that raw
  strength confined by row `r`'s own cement, slag, fly ash, water and age.  Every step is the reading of one
  operation at an index: a product as the sum over its contracted axis, a broadcast or a slice as its operand at the
  index underneath, a pointwise operation as itself.
-/
import proofs.«112007_j46084999086149_2_alg».proof.Proof.Gen.ReferenceIdeal.Read
import proofs.«112007_j46084999086149_2_alg».proof.Proof.Strength

noncomputable section

namespace Cert.ReferenceIdeal.RefValue

open Cert.ReferenceIdeal Cert.ReferenceIdeal.Read Idealize.ShloMosaic Idealize.ShloMosaic.ValueIdx Strength

/-! ## Where each product and each bias is read -/

theorem lrow0 (r : Fin 32768) (j : Fin 1024) (k : Fin 8) : lidx_main_v0 (ix2 r j) k = ix2 r k := by
  funext a; match a with | ⟨0, _⟩ => rfl | ⟨1, _⟩ => rfl
theorem rcol0 (r : Fin 32768) (j : Fin 1024) (k : Fin 8) : ridx_main_v0 (ix2 r j) k = ix2 k j := by
  funext a; match a with | ⟨0, _⟩ => rfl | ⟨1, _⟩ => rfl
theorem bias1 (r : Fin 32768) (j : Fin 1024) : idx_main_v1 (idx_main_v2 (ix2 r j)) = ix1 j := by
  funext a; match a with | ⟨0, _⟩ => rfl

theorem lrow5 (r : Fin 32768) (j : Fin 1024) (k : Fin 1024) : lidx_main_v5 (ix2 r j) k = ix2 r k := by
  funext a; match a with | ⟨0, _⟩ => rfl | ⟨1, _⟩ => rfl
theorem rcol5 (r : Fin 32768) (j : Fin 1024) (k : Fin 1024) : ridx_main_v5 (ix2 r j) k = ix2 k j := by
  funext a; match a with | ⟨0, _⟩ => rfl | ⟨1, _⟩ => rfl
theorem bias2 (r : Fin 32768) (j : Fin 1024) : idx_main_v6 (idx_main_v7 (ix2 r j)) = ix1 j := by
  funext a; match a with | ⟨0, _⟩ => rfl

theorem lrow10 (r : Fin 32768) (j : Fin 1024) (k : Fin 1024) : lidx_main_v10 (ix2 r j) k = ix2 r k := by
  funext a; match a with | ⟨0, _⟩ => rfl | ⟨1, _⟩ => rfl
theorem rcol10 (r : Fin 32768) (j : Fin 1024) (k : Fin 1024) : ridx_main_v10 (ix2 r j) k = ix2 k j := by
  funext a; match a with | ⟨0, _⟩ => rfl | ⟨1, _⟩ => rfl
theorem bias3 (r : Fin 32768) (j : Fin 1024) : idx_main_v11 (idx_main_v12 (ix2 r j)) = ix1 j := by
  funext a; match a with | ⟨0, _⟩ => rfl

theorem lrow15 (r : Fin 32768) (k : Fin 1024) : lidx_main_v15 (ix2 r (0 : Fin 1)) k = ix2 r k := by
  funext a; match a with | ⟨0, _⟩ => rfl | ⟨1, _⟩ => rfl
theorem rcol15 (r : Fin 32768) (k : Fin 1024) : ridx_main_v15 (ix2 r (0 : Fin 1)) k = ix2 k (0 : Fin 1) := by
  funext a; match a with | ⟨0, _⟩ => rfl | ⟨1, _⟩ => rfl
theorem bias4 (r : Fin 32768) : idx_main_v16 (idx_main_v17 (ix2 r (0 : Fin 1))) = ix1 (0 : Fin 1) := by
  funext a; match a with | ⟨0, _⟩ => rfl

/-! ## The three hidden layers and the readout, row by row -/

/-- Row `r` of the first hidden layer. -/
theorem hidden1 (x0 : (⟨S32768x8, .f32⟩ : BufTy).Contents (Elt Ideal)) (x1 : (⟨S8x1024, .f32⟩ : BufTy).Contents (Elt Ideal)) (x2 : (⟨S1024, .f32⟩ : BufTy).Contents (Elt Ideal)) (r : Fin 32768) (j : Fin 1024) :
    val_main_v4 (F := Ideal) x0 x1 x2 (ix2 r j) = layer (fun k => x0 (ix2 r k)) x1 x2 j := by
  rw [val_main_v4_apply, val_main_v3_apply, val_main_v0_apply, val_main_v2_apply, val_main_v1_apply,
    val_main_call0_v0_apply, val_main_call0_cst_apply, bias1]
  have hs : (∑ k : Fin 8, x0 (lidx_main_v0 (ix2 r j) k) * x1 (ridx_main_v0 (ix2 r j) k))
      = ∑ k : Fin 8, x0 (ix2 r k) * x1 (ix2 k j) :=
    Finset.sum_congr rfl fun k _ => by rw [lrow0, rcol0]
  rw [hs]
  rfl

/-- Row `r` of the second hidden layer. -/
theorem hidden2 (x0 : (⟨S32768x8, .f32⟩ : BufTy).Contents (Elt Ideal)) (x1 : (⟨S8x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (r : Fin 32768) (j : Fin 1024) :
    val_main_v9 (F := Ideal) x0 x1 x2 x3 x4 (ix2 r j) = layer (layer (fun k => x0 (ix2 r k)) x1 x2) x3 x4 j := by
  rw [val_main_v9_apply, val_main_v8_apply, val_main_v5_apply, val_main_v7_apply, val_main_v6_apply,
    val_main_call1_v0_apply, val_main_call1_cst_apply, bias2]
  have hs : (∑ k : Fin 1024, val_main_v4 (F := Ideal) x0 x1 x2 (lidx_main_v5 (ix2 r j) k) * x3 (ridx_main_v5 (ix2 r j) k))
      = ∑ k : Fin 1024, layer (fun k => x0 (ix2 r k)) x1 x2 k * x3 (ix2 k j) :=
    Finset.sum_congr rfl fun k _ => by rw [lrow5, rcol5, hidden1]
  rw [hs]
  rfl

/-- Row `r` of the third hidden layer. -/
theorem hidden3 (x0 : (⟨S32768x8, .f32⟩ : BufTy).Contents (Elt Ideal)) (x1 : (⟨S8x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (r : Fin 32768) (j : Fin 1024) :
    val_main_v14 (F := Ideal) x0 x1 x2 x3 x4 x5 x6 (ix2 r j)
      = layer (layer (layer (fun k => x0 (ix2 r k)) x1 x2) x3 x4) x5 x6 j := by
  rw [val_main_v14_apply, val_main_v13_apply, val_main_v10_apply, val_main_v12_apply, val_main_v11_apply,
    val_main_call2_v0_apply, val_main_call2_cst_apply, bias3]
  have hs : (∑ k : Fin 1024, val_main_v9 (F := Ideal) x0 x1 x2 x3 x4 (lidx_main_v10 (ix2 r j) k) * x5 (ridx_main_v10 (ix2 r j) k))
      = ∑ k : Fin 1024, layer (layer (fun k => x0 (ix2 r k)) x1 x2) x3 x4 k * x5 (ix2 k j) :=
    Finset.sum_congr rfl fun k _ => by rw [lrow10, rcol10, hidden2]
  rw [hs]
  rfl

/-- Entry `(r, 0)` before the confinement: the raw strength of row `r`. -/
theorem raw_row (x0 : (⟨S32768x8, .f32⟩ : BufTy).Contents (Elt Ideal)) (x1 : (⟨S8x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1, .f32⟩ : BufTy).Contents (Elt Ideal)) (x8 : (⟨S1, .f32⟩ : BufTy).Contents (Elt Ideal)) (r : Fin 32768) :
    val_main_v18 (F := Ideal) x0 x1 x2 x3 x4 x5 x6 x7 x8 (ix2 r (0 : Fin 1))
      = predict (fun k => x0 (ix2 r k)) x1 x2 x3 x4 x5 x6 x7 x8 := by
  rw [val_main_v18_apply, val_main_v15_apply, val_main_v17_apply, val_main_v16_apply, bias4]
  have hs : (∑ k : Fin 1024, val_main_v14 (F := Ideal) x0 x1 x2 x3 x4 x5 x6 (lidx_main_v15 (ix2 r (0 : Fin 1)) k)
        * x7 (ridx_main_v15 (ix2 r (0 : Fin 1)) k))
      = ∑ k : Fin 1024, layer (layer (layer (fun k => x0 (ix2 r k)) x1 x2) x3 x4) x5 x6 k * x7 (ix2 k (0 : Fin 1)) :=
    Finset.sum_congr rfl fun k _ => by rw [lrow15, rcol15, hidden3]
  rw [hs]
  rfl

/-! ## The confinement -/

theorem col0 (r : Fin 32768) : idx_main_v19 (ix2 r (0 : Fin 1)) = ix2 r (0 : Fin 8) := by
  funext a; match a with | ⟨0, _⟩ => rfl | ⟨1, _⟩ => rfl
theorem col1 (r : Fin 32768) : idx_main_v20 (ix2 r (0 : Fin 1)) = ix2 r (1 : Fin 8) := by
  funext a; match a with | ⟨0, _⟩ => rfl | ⟨1, _⟩ => rfl
theorem col2 (r : Fin 32768) : idx_main_v21 (ix2 r (0 : Fin 1)) = ix2 r (2 : Fin 8) := by
  funext a; match a with | ⟨0, _⟩ => rfl | ⟨1, _⟩ => rfl
theorem col3 (r : Fin 32768) : idx_main_v22 (ix2 r (0 : Fin 1)) = ix2 r (3 : Fin 8) := by
  funext a; match a with | ⟨0, _⟩ => rfl | ⟨1, _⟩ => rfl
theorem col7 (r : Fin 32768) : idx_main_v23 (ix2 r (0 : Fin 1)) = ix2 r (7 : Fin 8) := by
  funext a; match a with | ⟨0, _⟩ => rfl | ⟨1, _⟩ => rfl

/-- Entry `(r, 0)` of the result is the raw strength of row `r` confined by that row's cement (column 0), slag (1),
    fly ash (2), water (3) and age (7): each stage of the confinement is a pointwise operation, read at `(r, 0)`. -/
theorem confined (x0 : (⟨S32768x8, .f32⟩ : BufTy).Contents (Elt Ideal)) (x1 : (⟨S8x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1, .f32⟩ : BufTy).Contents (Elt Ideal)) (x8 : (⟨S1, .f32⟩ : BufTy).Contents (Elt Ideal)) (r : Fin 32768) :
    val_main_v86 (F := Ideal) x0 x1 x2 x3 x4 x5 x6 x7 x8 (ix2 r (0 : Fin 1))
      = confine (x0 (ix2 r (0 : Fin 8))) (x0 (ix2 r (1 : Fin 8))) (x0 (ix2 r (2 : Fin 8))) (x0 (ix2 r (3 : Fin 8)))
          (x0 (ix2 r (7 : Fin 8))) (val_main_v18 (F := Ideal) x0 x1 x2 x3 x4 x5 x6 x7 x8 (ix2 r (0 : Fin 1))) := by
  simp only [val_main_v19_apply,
    val_main_v20_apply,
    val_main_v21_apply,
    val_main_v22_apply,
    val_main_v23_apply,
    val_main_cst_apply,
    val_main_v24_apply,
    val_main_v25_apply,
    val_main_cst_0_apply,
    val_main_v26_apply,
    val_main_v27_apply,
    val_main_cst_1_apply,
    val_main_v28_apply,
    val_main_v29_apply,
    val_main_v30_apply,
    val_main_cst_2_apply,
    val_main_v31_apply,
    val_main_v32_apply,
    val_main_cst_3_apply,
    val_main_call3_v0_apply,
    val_main_call3_v1_apply,
    val_main_v33_apply,
    val_main_v34_apply,
    val_main_v35_apply,
    val_main_cst_4_apply,
    val_main_v36_apply,
    val_main_v37_apply,
    val_main_v38_apply,
    val_main_cst_5_apply,
    val_main_v39_apply,
    val_main_v40_apply,
    val_main_v41_apply,
    val_main_cst_6_apply,
    val_main_v42_apply,
    val_main_v43_apply,
    val_main_cst_7_apply,
    val_main_v44_apply,
    val_main_v45_apply,
    val_main_cst_8_apply,
    val_main_v46_apply,
    val_main_v47_apply,
    val_main_cst_9_apply,
    val_main_v48_apply,
    val_main_v49_apply,
    val_main_cst_10_apply,
    val_main_v50_apply,
    val_main_v51_apply,
    val_main_v52_apply,
    val_main_v53_apply,
    val_main_v54_apply,
    val_main_cst_11_apply,
    val_main_v55_apply,
    val_main_v56_apply,
    val_main_v57_apply,
    val_main_v58_apply,
    val_main_cst_12_apply,
    val_main_v59_apply,
    val_main_v60_apply,
    val_main_cst_13_apply,
    val_main_call4_v0_apply,
    val_main_call4_v1_apply,
    val_main_v61_apply,
    val_main_cst_14_apply,
    val_main_v62_apply,
    val_main_v63_apply,
    val_main_cst_15_apply,
    val_main_call5_v0_apply,
    val_main_call5_v1_apply,
    val_main_v64_apply,
    val_main_v65_apply,
    val_main_v66_apply,
    val_main_v67_apply,
    val_main_cst_16_apply,
    val_main_cst_17_apply,
    val_main_call6_v0_apply,
    val_main_call6_v1_apply,
    val_main_call6_v2_apply,
    val_main_call6_v3_apply,
    val_main_call6_v4_apply,
    val_main_v68_apply,
    val_main_v69_apply,
    val_main_v70_apply,
    val_main_cst_18_apply,
    val_main_v71_apply,
    val_main_v72_apply,
    val_main_v73_apply,
    val_main_v74_apply,
    val_main_cst_19_apply,
    val_main_v75_apply,
    val_main_v76_apply,
    val_main_v77_apply,
    val_main_cst_20_apply,
    val_main_v78_apply,
    val_main_v79_apply,
    val_main_cst_21_apply,
    val_main_cst_22_apply,
    val_main_call7_v0_apply,
    val_main_call7_v1_apply,
    val_main_call7_v2_apply,
    val_main_call7_v3_apply,
    val_main_call7_v4_apply,
    val_main_v80_apply,
    val_main_v81_apply,
    val_main_cst_23_apply,
    val_main_call8_v0_apply,
    val_main_call8_v1_apply,
    val_main_call8_v2_apply,
    val_main_v82_apply,
    val_main_cst_24_apply,
    val_main_v83_apply,
    val_main_v84_apply,
    val_main_v85_apply,
    val_main_v86_apply]
  rw [col0, col1, col2, col3, col7]
  rfl

/-- The reference's result, entry by entry, is the confined strength of each row. -/
theorem reference_eq (x0 : (⟨S32768x8, .f32⟩ : BufTy).Contents (Elt Ideal)) (x1 : (⟨S8x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1, .f32⟩ : BufTy).Contents (Elt Ideal)) (x8 : (⟨S1, .f32⟩ : BufTy).Contents (Elt Ideal)) :
    val_main_v86 (F := Ideal) x0 x1 x2 x3 x4 x5 x6 x7 x8 = result x0 x1 x2 x3 x4 x5 x6 x7 x8 := by
  funext i
  obtain ⟨r, q, rfl⟩ : ∃ (r : Fin 32768) (q : Fin 1), i = ix2 r q := ⟨i 0, i 1, eq_ix2 i⟩
  obtain rfl : q = 0 := Subsingleton.elim _ _
  rw [confined, raw_row]
  rfl

end Cert.ReferenceIdeal.RefValue

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibDenseLayer.lean ====
/-
  A dense layer inside a kernel, read at an index.

  A kernel computes a layer on a block of `K` rows as a product of the block `[K, N]` with the weights laid out
  `[N, Q]`, into a zero accumulator, plus the bias, one row `[1, Q]` laid along every row of the block; a clamp
  between two constants may follow.  Over the extended reals entry `(p, q)` of the result is
  `Σ n, X (p, n) * Wt (n, q) + bias (0, q)`, clamped.
-/
import proofs.«112007_j46084999086149_2_alg».proof.Proof.LibDenseBlock
import Idealize.ShloMosaic.Lib.ValueLayout

noncomputable section

namespace Idealize.ShloMosaic.DenseLayer

open Idealize.ShloMosaic Idealize.ShloMosaic.ValueIdx Idealize.ShloMosaic.DenseBlock

variable {K N Q : Nat} (wf : DotDims.WF ⟨2, ![K, N]⟩ ⟨2, ![N, Q]⟩ ⟨2, ![K, Q]⟩ [1] [0] [0] [1] [] [])

/-- Entry `(p, q)` of `X · Wt + bias`, the bias one row laid along every row. -/
theorem affine_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (p : Fin K) (q : Fin Q) :
    addf (matmul (mmDims K N Q wf) none X Wt (constant ⟨2, ![K, Q]⟩ .f32 0x00000000#32))
        (broadcastTo ⟨2, ![K, Q]⟩ bias hb) (ix2 p q)
      = (∑ n : Fin N, X (ix2 p n) * Wt (ix2 n q)) + bias (ix2 (0 : Fin 1) q) := by
  show FloatOps.matmul (mmDims K N Q wf) none X Wt (constant ⟨2, ![K, Q]⟩ .f32 0x00000000#32) (ix2 p q)
      + broadcastTo ⟨2, ![K, Q]⟩ bias hb (ix2 p q) = _
  rw [matmul_zero_apply wf X Wt p q, broadcastTo_1b_ab_apply bias hb p q]

/-- The same, clamped from below by the splat of `lo` and then from above by the splat of `hi`. -/
theorem affine_clamped_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (lo hi : BitVec 32)
    (p : Fin K) (q : Fin Q) :
    minimumf (broadcast ⟨2, ![K, Q]⟩ (Scalar.ofBits (F := Ideal) .f32 hi))
        (maximumf (broadcast ⟨2, ![K, Q]⟩ (Scalar.ofBits (F := Ideal) .f32 lo))
          (addf (matmul (mmDims K N Q wf) none X Wt (constant ⟨2, ![K, Q]⟩ .f32 0x00000000#32))
            (broadcastTo ⟨2, ![K, Q]⟩ bias hb))) (ix2 p q)
      = min (Ideal.ofBits .f32 hi) (max (Ideal.ofBits .f32 lo)
          ((∑ n : Fin N, X (ix2 p n) * Wt (ix2 n q)) + bias (ix2 (0 : Fin 1) q))) := by
  show min (Ideal.ofBits .f32 hi) (max (Ideal.ofBits .f32 lo)
      (addf (matmul (mmDims K N Q wf) none X Wt (constant ⟨2, ![K, Q]⟩ .f32 0x00000000#32))
        (broadcastTo ⟨2, ![K, Q]⟩ bias hb) (ix2 p q))) = _
  rw [affine_apply wf X Wt bias hb p q]

end Idealize.ShloMosaic.DenseLayer

end
-- ==== Proof.BlockRow.lean ====
/-
  What the kernel leaves in row `p` of one block, as the function of `Strength`.

  The kernel works on a block of 1024 samples at a time.  Row `p` of each hidden layer it computes is the layer of
  `Strength` applied to row `p` of the layer below: a product into a zero accumulator is the sum over the contracted
  axis, the bias is one row laid along every row of the block, a change of number format is the identity on the
  extended reals.  The confinement reads columns 0, 1, 2, 3 and 7 of the block's row `p` and the raw strength of that
  row, and applies the same operations as `Strength.confine`, with two differences of spelling: it negates by
  subtracting from zero, and it cubes as the number times its square.
-/
import proofs.«112007_j46084999086149_2_alg».proof.Proof.Gen.KernelIdeal.Skeleton
import proofs.«112007_j46084999086149_2_alg».proof.Proof.LibDenseLayer
import proofs.«112007_j46084999086149_2_alg».proof.Proof.Strength
import Idealize.ShloMosaic.Lib.Pipeline.Value
import Idealize.ShloMosaic.Lib.ValueLayout
import Idealize.ShloMosaic.PureOps.Ideal.Laws

noncomputable section

namespace Cert.KernelIdeal.BlockValue

open Cert.KernelIdeal Cert.KernelIdeal.Gen
open Idealize.ShloMosaic Idealize.ShloMosaic.ValueIdx Idealize.ShloMosaic.DenseBlock Idealize.ShloMosaic.DenseLayer Strength

/-! ## The hidden layers on a block -/

/-- The first hidden layer on a block, as the kernel spells it. -/
def hid1 (P0 : FVec Ideal S1024x8 .f32) (P1 : FVec Ideal S8x1024 .bf16) (P2 : FVec Ideal S1024 .f32) :
    FVec Ideal S1024x1024 .f32 :=
  maximumf (addf (matmul dot_S1024x8_S8x1024_S1024x1024_1_0_0_1_n_n none (truncf .bf16 P0 bitsLt_bf16_f32)
      (shapeCast S8x1024 P1 shapeCasts_S8x1024_S8x1024) (constant S1024x1024 .f32 0x00000000#32))
    (broadcastTo S1024x1024 (shapeCast S1x1024 P2 shapeCasts_S1024_S1x1024) broadcasts_S1x1024_S1024x1024))
    (broadcast S1024x1024 (Scalar.ofBits (F := Ideal) .f32 0x00000000#32))

/-- A later hidden layer on a block, from the layer below `X`, as the kernel spells it. -/
def hidNext (X : FVec Ideal S1024x1024 .f32) (W : FVec Ideal S1024x1024 .bf16) (b : FVec Ideal S1024 .f32) :
    FVec Ideal S1024x1024 .f32 :=
  maximumf (addf (matmul dot_S1024x1024_S1024x1024_S1024x1024_1_0_0_1_n_n none (truncf .bf16 X bitsLt_bf16_f32)
      (shapeCast S1024x1024 W shapeCasts_S1024x1024_S1024x1024) (constant S1024x1024 .f32 0x00000000#32))
    (broadcastTo S1024x1024 (shapeCast S1x1024 b shapeCasts_S1024_S1x1024) broadcasts_S1x1024_S1024x1024))
    (broadcast S1024x1024 (Scalar.ofBits (F := Ideal) .f32 0x00000000#32))

/-- The last product is of the third hidden layer with the last weights. -/
theorem readout_eq (P0 : FVec Ideal S1024x8 .f32) (P1 : FVec Ideal S8x1024 .bf16) (P2 : FVec Ideal S1024 .f32)
    (P3 : FVec Ideal S1024x1024 .bf16) (P4 : FVec Ideal S1024 .f32) (P5 : FVec Ideal S1024x1024 .bf16)
    (P6 : FVec Ideal S1024 .f32) (P7 : FVec Ideal S1024x1 .bf16) :
    k0_pay2 (F := Ideal) P0 P1 P2 P3 P4 P5 P6 P7
      = matmul dot_S1024x1024_S1024x1_S1024x1_1_0_0_1_n_n none
          (truncf .bf16 (hidNext (hidNext (hid1 P0 P1 P2) P3 P4) P5 P6) bitsLt_bf16_f32)
          (shapeCast S1024x1 P7 shapeCasts_S1024x1_S1024x1) (constant S1024x1 .f32 0x00000000#32) := rfl

/-- Row `p` of the first hidden layer. -/
theorem hid1_at (P0 : FVec Ideal S1024x8 .f32) (P1 : FVec Ideal S8x1024 .bf16) (P2 : FVec Ideal S1024 .f32)
    (p q : Fin 1024) : hid1 P0 P1 P2 (ix2 p q) = layer (fun n => P0 (ix2 p n)) P1 P2 q := by
  unfold hid1
  rw [shapeCast_self]
  refine (congrArg (fun z => max z zero)
    (affine_apply dot_S1024x8_S8x1024_S1024x1024_1_0_0_1_n_n.wf (truncf .bf16 P0 bitsLt_bf16_f32) P1
      (shapeCast S1x1024 P2 shapeCasts_S1024_S1x1024) broadcasts_S1x1024_S1024x1024 p q)).trans ?_
  rw [shapeCast_a_1a_apply]
  rfl

/-- Row `p` of a later hidden layer, from row `p` of the layer below. -/
theorem hidNext_at (X : FVec Ideal S1024x1024 .f32) (W : FVec Ideal S1024x1024 .bf16) (b : FVec Ideal S1024 .f32)
    (p q : Fin 1024) : hidNext X W b (ix2 p q) = layer (fun n => X (ix2 p n)) W b q := by
  unfold hidNext
  rw [shapeCast_self]
  refine (congrArg (fun z => max z zero)
    (affine_apply dot_S1024x1024_S1024x1024_S1024x1024_1_0_0_1_n_n.wf (truncf .bf16 X bitsLt_bf16_f32) W
      (shapeCast S1x1024 b shapeCasts_S1024_S1x1024) broadcasts_S1x1024_S1024x1024 p q)).trans ?_
  rw [shapeCast_a_1a_apply]
  rfl

/-- Row `p` of the last product: the sum over the third hidden layer's row `p`. -/
theorem product_at (P0 : FVec Ideal S1024x8 .f32) (P1 : FVec Ideal S8x1024 .bf16) (P2 : FVec Ideal S1024 .f32)
    (P3 : FVec Ideal S1024x1024 .bf16) (P4 : FVec Ideal S1024 .f32) (P5 : FVec Ideal S1024x1024 .bf16)
    (P6 : FVec Ideal S1024 .f32) (P7 : FVec Ideal S1024x1 .bf16) (p : Fin 1024) :
    k0_pay2 (F := Ideal) P0 P1 P2 P3 P4 P5 P6 P7 (ix2 p (0 : Fin 1))
      = ∑ n : Fin 1024, layer (layer (layer (fun k => P0 (ix2 p k)) P1 P2) P3 P4) P5 P6 n * P7 (ix2 n (0 : Fin 1)) := by
  rw [readout_eq, shapeCast_self]
  refine (matmul_zero_apply dot_S1024x1024_S1024x1_S1024x1_1_0_0_1_n_n.wf
    (truncf .bf16 (hidNext (hidNext (hid1 P0 P1 P2) P3 P4) P5 P6) bitsLt_bf16_f32) P7 p (0 : Fin 1)).trans ?_
  refine Finset.sum_congr rfl fun n _ => congrArg (· * P7 (ix2 n (0 : Fin 1))) ?_
  refine (hidNext_at _ P5 P6 p n).trans (congrArg (fun h => layer h P5 P6 n) (funext fun k => ?_))
  refine (hidNext_at _ P3 P4 p k).trans (congrArg (fun h => layer h P3 P4 k) (funext fun j => ?_))
  exact hid1_at P0 P1 P2 p j

/-- The last bias, one number, laid along the block's one column. -/
theorem bias_at (P8 : FVec Ideal S1 .f32) (p : Fin 1024) :
    k0_pay3 (F := Ideal) P8 (ix2 p (0 : Fin 1)) = P8 (ix1 (0 : Fin 1)) := by
  unfold k0_pay3
  refine (broadcastTo_1b_ab_apply (shapeCast S1x1 P8 shapeCasts_S1_S1x1) broadcasts_S1x1_S1024x1 p (0 : Fin 1)).trans ?_
  exact shapeCast_a_1a_apply P8 shapeCasts_S1_S1x1 (0 : Fin 1) (0 : Fin 1)

/-! ## The columns of a row -/

section
variable (P0 : FVec Ideal S1024x8 .f32) (p : Fin 1024)

/-- Column 0 of row `p`: the cement. -/
theorem cement_at : k0_pay5 (F := Ideal) P0 (ix2 p (0 : Fin 1)) = P0 (ix2 p (0 : Fin 8)) := by
  unfold k0_pay5
  exact slice2_axis1_apply 0 P0 slices_S1024x8_o0_0_S1024x1 p (0 : Fin 1) (0 : Fin 8) rfl

/-- Column 3 of row `p`: the water. -/
theorem water_at : k0_pay6 (F := Ideal) P0 (ix2 p (0 : Fin 1)) = P0 (ix2 p (3 : Fin 8)) := by
  unfold k0_pay6
  exact slice2_axis1_apply 3 P0 slices_S1024x8_o0_3_S1024x1 p (0 : Fin 1) (3 : Fin 8) rfl

/-- Columns 1 and 2 of row `p`, added: slag and fly ash, the supplementary materials. -/
theorem scm_at : k0_pay9 (F := Ideal) P0 (ix2 p (0 : Fin 1)) = P0 (ix2 p (1 : Fin 8)) + P0 (ix2 p (2 : Fin 8)) := by
  unfold k0_pay9
  exact congrArg₂ (· + ·) (slice2_axis1_apply 1 P0 slices_S1024x8_o0_1_S1024x1 p (0 : Fin 1) (1 : Fin 8) rfl)
    (slice2_axis1_apply 2 P0 slices_S1024x8_o0_2_S1024x1 p (0 : Fin 1) (2 : Fin 8) rfl)

/-- Column 7 of row `p`: the age. -/
theorem age_at : extractStridedSlice S1024x1 ![0, 7] P0 slices_S1024x8_o0_7_S1024x1 (ix2 p (0 : Fin 1)) = P0 (ix2 p (7 : Fin 8)) :=
  slice2_axis1_apply 7 P0 slices_S1024x8_o0_7_S1024x1 p (0 : Fin 1) (7 : Fin 8) rfl

/-- Cement and water both positive. -/
theorem valid_at : k0_pay7 (F := Ideal) P0 (ix2 p (0 : Fin 1))
    = IntOp.andi (positive (P0 (ix2 p (0 : Fin 8)))) (positive (P0 (ix2 p (3 : Fin 8)))) := by
  rw [← cement_at P0 p, ← water_at P0 p]
  rfl

/-- Water over cement. -/
theorem waterCement_at : k0_pay8 (F := Ideal) P0 (ix2 p (0 : Fin 1))
    = waterCement (P0 (ix2 p (0 : Fin 8))) (P0 (ix2 p (3 : Fin 8))) := by
  rw [← cement_at P0 p, ← water_at P0 p]
  rfl

/-- The binder: cement and the supplementary materials. -/
theorem binder_at : k0_pay11 (F := Ideal) P0 (ix2 p (0 : Fin 1))
    = P0 (ix2 p (0 : Fin 8)) + (P0 (ix2 p (1 : Fin 8)) + P0 (ix2 p (2 : Fin 8))) := by
  rw [← scm_at P0 p, ← cement_at P0 p]
  rfl

/-- The binder positive. -/
theorem binderPositive_at : k0_pay12 (F := Ideal) P0 (ix2 p (0 : Fin 1))
    = positive (P0 (ix2 p (0 : Fin 8)) + (P0 (ix2 p (1 : Fin 8)) + P0 (ix2 p (2 : Fin 8)))) := by
  rw [← binder_at P0 p]
  rfl

/-- Subtracting from zero is negating. -/
theorem zero_sub_eq (k : EReal) : zero - k = -k := by
  rw [show zero = (0 : EReal) from Ideal.ofBits_zero_f32, zero_sub]

/-- The degree of hydration: the kernel subtracts the rate from zero where `Strength.alpha` negates it. -/
theorem alpha_at : k0_pay10 (F := Ideal) P0 (ix2 p (0 : Fin 1))
    = alpha (P0 (ix2 p (0 : Fin 8))) (P0 (ix2 p (1 : Fin 8)) + P0 (ix2 p (2 : Fin 8)))
        (waterCement (P0 (ix2 p (0 : Fin 8))) (P0 (ix2 p (3 : Fin 8)))) (P0 (ix2 p (7 : Fin 8))) := by
  rw [← waterCement_at P0 p, ← scm_at P0 p, ← cement_at P0 p, ← age_at P0 p]
  unfold alpha alphaMax
  rw [← zero_sub_eq]
  rfl

end

/-! ## Row `p` of the block the kernel stores -/

/-- Entry `(p, 0)` of the stored block is the raw strength of the block's row `p`, confined by that row's cement,
    slag, fly ash, water and age.  The product of the last layer is kept as one variable throughout. -/
theorem stored_at (P0 : FVec Ideal S1024x8 .f32) (M : FVec Ideal S1024x1 .f32) (P8 : FVec Ideal S1 .f32) (p : Fin 1024) :
    k0_pay1 (F := Ideal) (k0_pay4 (F := Ideal) M (k0_pay3 (F := Ideal) P8)) (k0_pay5 (F := Ideal) P0) (k0_pay6 (F := Ideal) P0)
        (k0_pay7 (F := Ideal) P0) (k0_pay8 (F := Ideal) P0) (k0_pay9 (F := Ideal) P0) (k0_pay10 (F := Ideal) P0)
        (k0_pay11 (F := Ideal) P0) (k0_pay12 (F := Ideal) P0) (ix2 p (0 : Fin 1))
      = confine (P0 (ix2 p (0 : Fin 8))) (P0 (ix2 p (1 : Fin 8))) (P0 (ix2 p (2 : Fin 8))) (P0 (ix2 p (3 : Fin 8)))
          (P0 (ix2 p (7 : Fin 8))) (M (ix2 p (0 : Fin 1)) + P8 (ix1 (0 : Fin 1))) := by
  unfold confine upperBound maxStrength gelRatio conservation
  rw [cube_eq_mul_sq, ← alpha_at P0 p, ← valid_at P0 p, ← binderPositive_at P0 p, ← waterCement_at P0 p,
    ← binder_at P0 p, ← scm_at P0 p, ← cement_at P0 p, ← water_at P0 p, ← bias_at P8 p]
  rfl

/-- Entry `(p, 0)` of the stored block is the confined strength of the sample in the block's row `p`, with the weights
    and biases the kernel was handed. -/
theorem stored_row (P0 : FVec Ideal S1024x8 .f32) (P1 : FVec Ideal S8x1024 .bf16) (P2 : FVec Ideal S1024 .f32)
    (P3 : FVec Ideal S1024x1024 .bf16) (P4 : FVec Ideal S1024 .f32) (P5 : FVec Ideal S1024x1024 .bf16)
    (P6 : FVec Ideal S1024 .f32) (P7 : FVec Ideal S1024x1 .bf16) (P8 : FVec Ideal S1 .f32) (p : Fin 1024) :
    k0_pay1 (F := Ideal) (k0_pay4 (F := Ideal) (k0_pay2 (F := Ideal) P0 P1 P2 P3 P4 P5 P6 P7) (k0_pay3 (F := Ideal) P8))
        (k0_pay5 (F := Ideal) P0) (k0_pay6 (F := Ideal) P0) (k0_pay7 (F := Ideal) P0) (k0_pay8 (F := Ideal) P0)
        (k0_pay9 (F := Ideal) P0) (k0_pay10 (F := Ideal) P0) (k0_pay11 (F := Ideal) P0) (k0_pay12 (F := Ideal) P0)
        (ix2 p (0 : Fin 1))
      = sample (fun k => P0 (ix2 p k)) P1 P2 P3 P4 P5 P6 P7 P8 := by
  rw [stored_at P0 (k0_pay2 (F := Ideal) P0 P1 P2 P3 P4 P5 P6 P7) P8 p, product_at]
  rfl

/-- The confined strength depends on the sample and on the weights only through their values. -/
theorem sample_congr {xr xr' : Fin 8 → EReal}
    {W1 W1' : (⟨2, ![8, 1024]⟩ : Shape).Idx → EReal} {b1 b1' : (⟨1, ![1024]⟩ : Shape).Idx → EReal}
    {W2 W2' : (⟨2, ![1024, 1024]⟩ : Shape).Idx → EReal} {b2 b2' : (⟨1, ![1024]⟩ : Shape).Idx → EReal}
    {W3 W3' : (⟨2, ![1024, 1024]⟩ : Shape).Idx → EReal} {b3 b3' : (⟨1, ![1024]⟩ : Shape).Idx → EReal}
    {W4 W4' : (⟨2, ![1024, 1]⟩ : Shape).Idx → EReal} {b4 b4' : (⟨1, ![1]⟩ : Shape).Idx → EReal}
    (hx : xr = xr') (h1 : W1 = W1') (h2 : b1 = b1') (h3 : W2 = W2') (h4 : b2 = b2') (h5 : W3 = W3') (h6 : b3 = b3')
    (h7 : W4 = W4') (h8 : b4 = b4') :
    sample xr W1 b1 W2 b2 W3 b3 W4 b4 = sample xr' W1' b1' W2' b2' W3' b3' W4' b4' := by
  subst hx h1 h2 h3 h4 h5 h6 h7 h8
  rfl

end Cert.KernelIdeal.BlockValue

end
-- ==== Proof.BlocksToArray.lean ====
/-
  From the blocks the kernel stores to the whole result.

  The grid has 32 points.  At point `t` the kernel is handed rows `1024 t … 1024 t + 1023` of the samples and the whole
  of every weight matrix and bias (the four weight matrices after a change of number format, which on the extended
  reals changes nothing), and it stores rows `1024 t … 1024 t + 1023` of the result.  So what point `t` stores is block
  `t` of `Strength.result` of the arguments; the 32 blocks cover the 32768 rows; hence the array the run leaves is
  `Strength.result` of the arguments.
-/
import proofs.«112007_j46084999086149_2_alg».proof.Proof.ValueBlocks
import proofs.«112007_j46084999086149_2_alg».proof.Proof.BlockRow
import Idealize.ShloMosaic.Lib.StableHlo.Run

noncomputable section

namespace Cert.KernelIdeal.ArrayValue

open Cert.KernelIdeal Cert.KernelIdeal.Gen Cert.KernelIdeal.BlockValue Idealize.ShloMosaic Idealize.ShloMosaic.TcCoe
open Idealize.SL.Sem Idealize.ShloMosaic.ValueIdx Idealize.ShloMosaic.StableHlo Strength
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- Where each window's block sits at point `t`, decided over the 32 points: the samples' block moves with the
    result's block, every other operand's block is the whole array, and the result's block index is the point's
    row block. -/
theorem idx_facts : ∀ t : Fin cfg0.N,
    win0_0.index t (0 : Fin 2) = win0_9.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) ≤ 31 ∧ win0_9.index t (1 : Fin 2) = 0 :=
  (by decide +kernel : ∀ t : Fin grid0.N, _)

/-- Every row block is some point's. -/
theorem idx_onto : ∀ q : Fin 32, ∃ t : Fin cfg0.N, win0_9.index t = ![q.val, 0] :=
  (by decide +kernel : ∀ q : Fin 32, ∃ t : Fin grid0.N, win0_9.index t = ![q.val, 0])

/-! ## The arrays the region finds -/

/-- The first weight matrix as the region finds it: the argument with its number format changed, which on the
    extended reals is the argument. -/
theorem found_W1 (c : Dev nD) :
    @Eq (S8x1024.Idx → EReal) (V m c main_call0_v0) (m ((c : Thread nD τ).loc main_arg1)) := by
  dsimp only [V, hostOps0]; after_results; rfl

theorem found_W2 (c : Dev nD) :
    @Eq (S1024x1024.Idx → EReal) (V m c main_call0_v1) (m ((c : Thread nD τ).loc main_arg3)) := by
  dsimp only [V, hostOps0]; after_results; rfl

theorem found_W3 (c : Dev nD) :
    @Eq (S1024x1024.Idx → EReal) (V m c main_call0_v2) (m ((c : Thread nD τ).loc main_arg5)) := by
  dsimp only [V, hostOps0]; after_results; rfl

theorem found_W4 (c : Dev nD) :
    @Eq (S1024x1.Idx → EReal) (V m c main_call0_v3) (m ((c : Thread nD τ).loc main_arg7)) := by
  dsimp only [V, hostOps0]; after_results; rfl

/-! ## The blocks at a point -/

section
variable (c : Dev nD) (t : Fin cfg0.N)

/-- Row `p` of the samples' block at point `t` is the row of the samples under row `p` of the result's block. -/
theorem rows_at (p : Fin 1024) :
    (fun k : Fin 8 => (iblk m c 0 t : S1024x8.Idx → EReal) (ix2 p k))
      = fun k : Fin 8 => (V m c main_arg0 : S32768x8.Idx → EReal)
          (ix2 ((((cfg0.win 9).blk t).view.emb (ix2 p (0 : Fin 1)) : S32768x1.Idx) 0) k) := by
  obtain ⟨e0, e1, -⟩ := idx_facts t
  funext k
  show (V m c main_arg0 : S32768x8.Idx → EReal) (((cfg0.win 0).blk t).view.emb (ix2 p k)) = _
  refine congrArg _ (funext fun a => Fin.ext ?_)
  match a with
  | ⟨0, _⟩ =>
    show win0_0.index t (0 : Fin 2) * 1024 + 1 * p.val = win0_9.index t (0 : Fin 2) * 1024 + 1 * p.val
    omega
  | ⟨1, _⟩ =>
    show win0_0.index t (1 : Fin 2) * 8 + 1 * k.val = k.val
    omega

theorem whole_W1 : (iblk m c 1 t : S8x1024.Idx → EReal) = V m c main_call0_v0 := by
  obtain ⟨-, -, e0, e1, -⟩ := idx_facts t
  funext j
  show (V m c main_call0_v0 : S8x1024.Idx → EReal) (((cfg0.win 1).blk t).view.emb j) = _
  refine congrArg _ (funext fun a => Fin.ext ?_)
  match a with
  | ⟨0, _⟩ => show win0_1.index t (0 : Fin 2) * 8 + 1 * (j 0).val = (j 0).val; omega
  | ⟨1, _⟩ => show win0_1.index t (1 : Fin 2) * 1024 + 1 * (j 1).val = (j 1).val; omega

theorem whole_b1 : (iblk m c 2 t : S1024.Idx → EReal) = V m c main_arg2 := by
  obtain ⟨-, -, -, -, e0, -⟩ := idx_facts t
  funext j
  show (V m c main_arg2 : S1024.Idx → EReal) (((cfg0.win 2).blk t).view.emb j) = _
  refine congrArg _ (funext fun a => Fin.ext ?_)
  match a with
  | ⟨0, _⟩ => show win0_2.index t (0 : Fin 1) * 1024 + 1 * (j 0).val = (j 0).val; omega

theorem whole_W2 : (iblk m c 3 t : S1024x1024.Idx → EReal) = V m c main_call0_v1 := by
  obtain ⟨-, -, -, -, -, e0, e1, -⟩ := idx_facts t
  funext j
  show (V m c main_call0_v1 : S1024x1024.Idx → EReal) (((cfg0.win 3).blk t).view.emb j) = _
  refine congrArg _ (funext fun a => Fin.ext ?_)
  match a with
  | ⟨0, _⟩ => show win0_3.index t (0 : Fin 2) * 1024 + 1 * (j 0).val = (j 0).val; omega
  | ⟨1, _⟩ => show win0_3.index t (1 : Fin 2) * 1024 + 1 * (j 1).val = (j 1).val; omega

theorem whole_b2 : (iblk m c 4 t : S1024.Idx → EReal) = V m c main_arg4 := by
  obtain ⟨-, -, -, -, -, -, -, e0, -⟩ := idx_facts t
  funext j
  show (V m c main_arg4 : S1024.Idx → EReal) (((cfg0.win 4).blk t).view.emb j) = _
  refine congrArg _ (funext fun a => Fin.ext ?_)
  match a with
  | ⟨0, _⟩ => show win0_4.index t (0 : Fin 1) * 1024 + 1 * (j 0).val = (j 0).val; omega

theorem whole_W3 : (iblk m c 5 t : S1024x1024.Idx → EReal) = V m c main_call0_v2 := by
  obtain ⟨-, -, -, -, -, -, -, -, e0, e1, -⟩ := idx_facts t
  funext j
  show (V m c main_call0_v2 : S1024x1024.Idx → EReal) (((cfg0.win 5).blk t).view.emb j) = _
  refine congrArg _ (funext fun a => Fin.ext ?_)
  match a with
  | ⟨0, _⟩ => show win0_5.index t (0 : Fin 2) * 1024 + 1 * (j 0).val = (j 0).val; omega
  | ⟨1, _⟩ => show win0_5.index t (1 : Fin 2) * 1024 + 1 * (j 1).val = (j 1).val; omega

theorem whole_b3 : (iblk m c 6 t : S1024.Idx → EReal) = V m c main_arg6 := by
  obtain ⟨-, -, -, -, -, -, -, -, -, -, e0, -⟩ := idx_facts t
  funext j
  show (V m c main_arg6 : S1024.Idx → EReal) (((cfg0.win 6).blk t).view.emb j) = _
  refine congrArg _ (funext fun a => Fin.ext ?_)
  match a with
  | ⟨0, _⟩ => show win0_6.index t (0 : Fin 1) * 1024 + 1 * (j 0).val = (j 0).val; omega

theorem whole_W4 : (iblk m c 7 t : S1024x1.Idx → EReal) = V m c main_call0_v3 := by
  obtain ⟨-, -, -, -, -, -, -, -, -, -, -, e0, e1, -⟩ := idx_facts t
  funext j
  show (V m c main_call0_v3 : S1024x1.Idx → EReal) (((cfg0.win 7).blk t).view.emb j) = _
  refine congrArg _ (funext fun a => Fin.ext ?_)
  match a with
  | ⟨0, _⟩ => show win0_7.index t (0 : Fin 2) * 1024 + 1 * (j 0).val = (j 0).val; omega
  | ⟨1, _⟩ => show win0_7.index t (1 : Fin 2) * 1 + 1 * (j 1).val = (j 1).val; omega

theorem whole_b4 : (iblk m c 8 t : S1.Idx → EReal) = V m c main_arg8 := by
  obtain ⟨-, -, -, -, -, -, -, -, -, -, -, -, -, e0, -⟩ := idx_facts t
  funext j
  show (V m c main_arg8 : S1.Idx → EReal) (((cfg0.win 8).blk t).view.emb j) = _
  refine congrArg _ (funext fun a => Fin.ext ?_)
  match a with
  | ⟨0, _⟩ => show win0_8.index t (0 : Fin 1) * 1 + 1 * (j 0).val = (j 0).val; omega

end

/-! ## What a point stores, and the whole array -/

/-- The result as a function of the arrays the run starts from. -/
abbrev answer (c : Dev nD) : S32768x1.Idx → EReal :=
  result (m ((c : Thread nD τ).loc main_arg0) : S32768x8.Idx → EReal) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-- What point `t` writes back is block `t` of the result. -/
theorem flushed_eq (c : Dev nD) (t : Fin cfg0.N) :
    (dats m 0 c).flushed 9 t = ((cfg0.win 9).blk t).view.read (Elt Ideal) (answer m c) := by
  rw [ValueP.flushed9]
  unfold out0_9
  rw [View.canon_unit_zero hz2]
  simp only [View.ld_unit_zero (S := S1024x8) hz2, View.ld_unit_zero (S := S8x1024) hz2,
    View.ld_unit_zero (S := S1024x1024) hz2, View.ld_unit_zero (S := S1024x1) hz2,
    View.ld_unit_zero (S := S1024) hz1, View.ld_unit_zero (S := S1) hz1]
  funext y
  obtain ⟨p, q, rfl⟩ : ∃ (p : Fin 1024) (q : Fin 1), y = ix2 p q := ⟨y 0, y 1, eq_ix2 y⟩
  obtain rfl : q = 0 := Subsingleton.elim _ _
  refine (stored_row (iblk m c 0 t) (iblk m c 1 t) (iblk m c 2 t) (iblk m c 3 t) (iblk m c 4 t) (iblk m c 5 t)
    (iblk m c 6 t) (iblk m c 7 t) (iblk m c 8 t) p).trans ?_
  show _ = sample (fun k : Fin 8 => (m ((c : Thread nD τ).loc main_arg0) : S32768x8.Idx → EReal)
      (ix2 ((((cfg0.win 9).blk t).view.emb (ix2 p (0 : Fin 1)) : S32768x1.Idx) 0) k)) _ _ _ _ _ _ _ _
  refine sample_congr ?_ ((whole_W1 m c t).trans (found_W1 m c)) ((whole_b1 m c t).trans (V_main_arg2 m c))
    ((whole_W2 m c t).trans (found_W2 m c)) ((whole_b2 m c t).trans (V_main_arg4 m c))
    ((whole_W3 m c t).trans (found_W3 m c)) ((whole_b3 m c t).trans (V_main_arg6 m c))
    ((whole_W4 m c t).trans (found_W4 m c)) ((whole_b4 m c t).trans (V_main_arg8 m c))
  rw [rows_at m c t p, V_main_arg0 m c]

/-- Which rows a point's block holds. -/
theorem mem_blk (t : Fin cfg0.N) (i : S32768x1.Idx) :
    i ∈ ((cfg0.win 9).blk t).view.set ↔ ∀ a : Fin 2, win0_9.index t a * S1024x1.size a ≤ (i a).val
      ∧ (i a).val < win0_9.index t a * S1024x1.size a + S1024x1.size a := by
  show i ∈ ((View.whole main_v0).slice (win0_9.rect t)).set ↔ _
  rw [View.set_slice_whole, Rect.mem_set_unit]
  exact Iff.rfl

/-- The 32 blocks cover the array: row `r` is in the block of the point whose row block is `r / 1024`. -/
theorem covered (i : S32768x1.Idx) : ∃ t : Fin cfg0.N, (cfg0.win 9).flush t = true ∧ i ∈ ((cfg0.win 9).blk t).view.set := by
  have hi0 : (i 0).val < 32768 := (i 0).isLt
  have hi1 : (i 1).val < 1 := (i 1).isLt
  obtain ⟨t, ht⟩ := idx_onto ⟨(i 0).val / 1024, by omega⟩
  have q0 : win0_9.index t (0 : Fin 2) = (i 0).val / 1024 := congrFun ht 0
  have q1 : win0_9.index t (1 : Fin 2) = 0 := congrFun ht 1
  refine ⟨t, flush0_9 t, ?_⟩
  rw [mem_blk]
  intro a
  match a with
  | ⟨0, _⟩ =>
    show win0_9.index t (0 : Fin 2) * 1024 ≤ (i 0).val ∧ (i 0).val < win0_9.index t (0 : Fin 2) * 1024 + 1024
    omega
  | ⟨1, _⟩ =>
    show win0_9.index t (1 : Fin 2) * 1 ≤ (i 1).val ∧ (i 1).val < win0_9.index t (1 : Fin 2) * 1 + 1
    omega

/-- The array the run leaves is the result. -/
theorem final (c : Dev nD) : (dats m 0 c).arrAt 9 cfg0.N = answer m c :=
  (dats m 0 c).arrAt_eq_of_cover 9 (answer m c) (fun t _ => flushed_eq m c t) covered

/-- The kernel's run, with its result array named: every weakly fair execution ends, nothing faults, the result is
    `Strength.result` of the arguments, and the arguments are as they were. -/
theorem run : θ_run defs (onTc (τ := τ) (main (F := Ideal))) ⟨m, fun _ => 0, ρ⟩ fun r => ∀ c : Dev nD,
      r.2.mem ((c : Thread nD τ).loc main_v0) = answer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (ValueP.run_blocks m ρ)

end Cert.KernelIdeal.ArrayValue

end
-- ==== Proof.lean ====
/-
  The proof of `Cert.Claim`: a four-layer perceptron with its prediction confined to what a concrete mix allows,
  computed by a kernel that works on 1024 samples at a time, against the same computation written on whole arrays.

  Over the extended reals both programs compute `Strength.result` of their arguments (Proof/Strength.lean):
    * the reference, one stage at a time: each product read as a sum over its contracted axis, each broadcast and slice
      as its operand at the index underneath (Proof/RefRow.lean, over the reference's run read back stage by stage);
    * the kernel, in two steps: row `p` of the block a grid point stores is the confined strength of the sample in row
      `p` of the block it was handed (Proof/BlockRow.lean: a product into a zero accumulator is a sum, a change of number
      format is the identity, subtracting from zero is negating, and a number times its square is its cube), and the 32
      blocks are the 32 row blocks of the result (Proof/BlocksToArray.lean).
  No law used needs an entry to be finite, so the precondition is never opened.
  The three frames are the programs' runs with the results forgotten; the idealized kernel is the kernel's own text
  read over the extended reals, so there is nothing to preserve.
-/
import proofs.«112007_j46084999086149_2_alg».proof.Defs
import proofs.«112007_j46084999086149_2_alg».proof.Proof.Gen.Kernel
import proofs.«112007_j46084999086149_2_alg».proof.Proof.Gen.Kernel.Skeleton
import proofs.«112007_j46084999086149_2_alg».proof.Proof.Gen.Kernel.Launch
import proofs.«112007_j46084999086149_2_alg».proof.Proof.Gen.Kernel.Points
import proofs.«112007_j46084999086149_2_alg».proof.Proof.Gen.Kernel.Frame
import proofs.«112007_j46084999086149_2_alg».proof.Proof.Gen.KernelIdeal
import proofs.«112007_j46084999086149_2_alg».proof.Proof.Gen.KernelIdeal.Skeleton
import proofs.«112007_j46084999086149_2_alg».proof.Proof.Gen.KernelIdeal.Launch
import proofs.«112007_j46084999086149_2_alg».proof.Proof.Gen.KernelIdeal.Points
import proofs.«112007_j46084999086149_2_alg».proof.Proof.Gen.KernelIdeal.Frame
import proofs.«112007_j46084999086149_2_alg».proof.Proof.Gen.ReferenceIdeal
import proofs.«112007_j46084999086149_2_alg».proof.Proof.Gen.Pre_finite_inputs
import proofs.«112007_j46084999086149_2_alg».proof.Proof.Gen.ReferenceIdeal.Run
import proofs.«112007_j46084999086149_2_alg».proof.Proof.Gen.ReferenceIdeal.Read
import proofs.«112007_j46084999086149_2_alg».proof.Proof.RefRow
import proofs.«112007_j46084999086149_2_alg».proof.Proof.BlocksToArray
import Idealize.ShloMosaic.Adequacy
import Idealize.ShloMosaic.Init

noncomputable section

namespace Cert.Proof

open Idealize.ShloMosaic Idealize.SL.Sem Cert.Kernel

/-- The kernel as printed runs, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text: no operation was rewritten. -/
theorem preserves : Cert.preserves_Kernel_KernelIdeal := trivial

/-- From memories that agree on the arguments, both programs end with `Strength.result` of those arguments. -/
theorem algebraic : Cert.algebraic_KernelIdeal_ReferenceIdeal := by
  intro m ρ m' ρ' _ hagree
  refine ⟨fun c => Cert.KernelIdeal.ArrayValue.answer m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v86_eq, Cert.ReferenceIdeal.RefValue.reference_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
